-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64 .f32) (main_arg8 : FVec F S64x16 .f32) (main_arg9 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x64 .f32) (main_arg7 : FVec F S64 .f32) (main_arg8 : FVec F S64x16 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x16 .f32) (main_arg9 : FVec F S16 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x128 : Shape := ⟨2, ![10000, 128]⟩
abbrev S1x128 : Shape := ⟨2, ![1, 128]⟩
abbrev S1x64 : Shape := ⟨2, ![1, 64]⟩
abbrev S1x16 : Shape := ⟨2, ![1, 16]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S10000x16 : Shape := ⟨2, ![10000, 16]⟩
abbrev S400x16 : Shape := ⟨2, ![400, 16]⟩

abbrev nBuf : Space → Nat
  | .hbm => 18
  | .vmem => 20
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S10000x128, .f32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S1x16, .f32⟩
  | .hbm, ⟨15, _⟩ => ⟨S10000x128, .bf16⟩
  | .hbm, ⟨16, _⟩ => ⟨S10000x64, .bf16⟩
  | .hbm, ⟨17, _⟩ => ⟨S10000x16, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S10000x128, .bf16⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S1x128, .f32⟩
  | .local _ .vmem, ⟨9, _⟩ => ⟨S128x64, .f32⟩
  | .local _ .vmem, ⟨10, _⟩ => ⟨S400x64, .bf16⟩
  | .local _ .vmem, ⟨11, _⟩ => ⟨S400x64, .bf16⟩
  | .local _ .vmem, ⟨12, _⟩ => ⟨S400x10000, .f32⟩
  | .local _ .vmem, ⟨13, _⟩ => ⟨S400x10000, .f32⟩
  | .local _ .vmem, ⟨14, _⟩ => ⟨S10000x64, .bf16⟩
  | .local _ .vmem, ⟨15, _⟩ => ⟨S1x64, .f32⟩
  | .local _ .vmem, ⟨16, _⟩ => ⟨S64x16, .f32⟩
  | .local _ .vmem, ⟨17, _⟩ => ⟨S1x16, .f32⟩
  | .local _ .vmem, ⟨18, _⟩ => ⟨S400x16, .f32⟩
  | .local _ .vmem, ⟨19, _⟩ => ⟨S400x16, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S1x10000x128_S10000x128 : S1x10000x128.ShapeCasts S10000x128
  shapeCasts_S128_S1x128 : S128.ShapeCasts S1x128
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x16.size a ≤ S10000x16.size a
  hwx2_5 : ∀ i : grid2.Coords, EltTy.bits .f32 = 32 ∨ (Rect.block (s := S10000x16) S400x16.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v5) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S400x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x128 : Shape := ⟨2, ![10000, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩

abbrev nBuf : Space → Nat
  | .hbm => 35
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x64, .f32⟩
  | .hbm, ⟨24, _⟩ => ⟨S10000x64, .f32⟩
  | .hbm, ⟨25, _⟩ => ⟨S1x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000x64, .f32⟩
  | .hbm, ⟨30, _⟩ => ⟨S10000x64, .f32⟩
  | .hbm, ⟨31, _⟩ => ⟨S10000x16, .f32⟩
  | .hbm, ⟨32, _⟩ => ⟨S1x16, .f32⟩
  | .hbm, ⟨33, _⟩ => ⟨S10000x16, .f32⟩
  | .hbm, ⟨34, _⟩ => ⟨S10000x16, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  shapeCasts_S1x10000x128_S10000x128 : S1x10000x128.ShapeCasts S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«156635_g3221225472201_cont_8to1_b_1787_6_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibGcnLayerReads.lean ====
/-
  A GRAPH-CONVOLUTION LAYER AND A FEATURE PROJECTION, ONE ROW AT A TIME, READ AT AN ENTRY.

  Two row functions over the extended reals, and the four ways a program spells them.

  `projRow x F f W q` is entry q of (x·F + f)·W for one row x of features: a projection followed by a weight.
  `layerRow a S b W q` is entry q of relu(a·S + b)·W for one row a of an adjacency matrix: a graph-convolution layer
  followed by the next weight. Entry (r, q) of a product depends on row r of its left factor only, and a bias is
  added to every row alike, so both are functions of ONE ROW of the left factor and of the bias as a function of the
  column. Whoever computes such a stage — on the whole matrix, or on a stripe of its rows — computes these at each of
  its rows; that is why cutting the left factor into stripes of rows changes nothing. The relu's threshold is kept as
  the float word 0x00000000 read as an extended real, never evaluated.

  A kernel writes a product as a multiply-accumulate into a block of zeros, repeats a [1, n] bias row down the rows
  of its block, takes operands in a narrower float format, and writes the relu as a maximum with a splat zero
  (`kernel_proj_at`, `kernel_layer_at`). A host program writes a product as a dot, broadcasts an [n] bias vector to
  a row and then down the rows, and writes the relu as a maximum with a broadcast scalar zero (`host_proj_at`,
  `host_layer_at`). At entry (r, q) each of the four is the row function at row r of the left factor: a product's
  entry is the sum over the contracted index of left(r, k) · right(k, q), a repeated row reads the row's entry of
  that column, and a change of float format is the identity on the extended reals. The sums are finite sums of
  extended reals, whose addition is commutative and associative; no other law is used, and none that needs finite
  entries. Everything is generic in the sizes, so one lemma serves a whole matrix and a stripe of its rows.
-/
import Idealize.ShloMosaic.PureOps.Ideal.Laws
import Idealize.ShloMosaic.Lib.ValueIdx
import Idealize.ShloMosaic.Lib.ValueLayout
import Idealize.ShloMosaic.Lib.Pipeline.Value
import proofs.«156635_g3221225472201_cont_8to1_b_1787_6_alg».proof.Proof.LibRowReads

noncomputable section

open scoped BigOperators

namespace Cert.Gcn

open Idealize.ShloMosaic Idealize.ShloMosaic.ValueIdx Cert.Lib

/-- The relu's threshold: the single-precision word 0x00000000 as an extended real. -/
abbrev thr : EReal := Ideal.ofBits .f32 0x00000000#32

/-- Entry q of (x·F + f)·W for one row x of the features: the inner sum runs over the features, the outer one over
    the columns of F. -/
def projRow {Fi Fo H : Nat} (x : Fin Fi → EReal) (Fm : (⟨2, ![Fi, Fo]⟩ : Shape).Idx → EReal) (f : Fin Fo → EReal)
    (W : (⟨2, ![Fo, H]⟩ : Shape).Idx → EReal) (q : Fin H) : EReal :=
  ∑ k : Fin Fo, ((∑ a : Fin Fi, x a * Fm (ix2 a k)) + f k) * W (ix2 k q)

/-- Entry q of relu(a·S + b)·W for one row a of the adjacency matrix: the inner sum runs over the nodes, the outer
    one over the hidden columns. -/
def layerRow {Nn H O : Nat} (a : Fin Nn → EReal) (S : (⟨2, ![Nn, H]⟩ : Shape).Idx → EReal) (b : Fin H → EReal)
    (W : (⟨2, ![H, O]⟩ : Shape).Idx → EReal) (q : Fin O) : EReal :=
  ∑ h : Fin H, max ((∑ k : Fin Nn, a k * S (ix2 k h)) + b h) thr * W (ix2 h q)

/-- A record of a plain matrix product: the left factor's columns contracted against the right factor's rows, no
    batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Kernel

/-- A kernel's product into zeros at (r, q). -/
theorem kmm_at {M K N : Nat} {d : DotDims ⟨2, ![M, K]⟩ ⟨2, ![K, N]⟩ ⟨2, ![M, N]⟩} (hd : Plain d) {φ₁ φ₂ : FTy}
    (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  matmul_zero_at d hd.lc hd.rc hd.ln hd.rn hd.lb hd.rb prec a b r q

/-- A [1, n] row, re-laid in its own shape and repeated down the rows of a block: at (r, c), the row's entry c. -/
theorem krow_at {a b : Nat} {φ : FTy} (v : FVec Ideal ⟨2, ![1, b]⟩ φ)
    (h1 : (⟨2, ![1, b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix2 (0 : Fin 1) c) := by
  rw [broadcastTo_1b_ab_apply, shapeCast_self]

/-- The projection stage as a kernel writes it — (x·F + f)·W with both products into zeros, the bias a repeated row
    — at (r, q). -/
theorem kernel_proj_at {Nn Fi Fo H : Nat}
    {d1 : DotDims ⟨2, ![Nn, Fi]⟩ ⟨2, ![Fi, Fo]⟩ ⟨2, ![Nn, Fo]⟩} {d2 : DotDims ⟨2, ![Nn, Fo]⟩ ⟨2, ![Fo, H]⟩ ⟨2, ![Nn, H]⟩}
    (h1 : Plain d1) (h2 : Plain d2) (p1 p2 : Option ContractPrecision)
    (x : FVec Ideal ⟨2, ![Nn, Fi]⟩ .f32) (Fm : FVec Ideal ⟨2, ![Fi, Fo]⟩ .f32) (f : FVec Ideal ⟨2, ![1, Fo]⟩ .f32)
    (W : FVec Ideal ⟨2, ![Fo, H]⟩ .f32)
    (cx : (⟨2, ![Nn, Fi]⟩ : Shape).ShapeCasts ⟨2, ![Nn, Fi]⟩) (cf : (⟨2, ![1, Fo]⟩ : Shape).ShapeCasts ⟨2, ![1, Fo]⟩)
    (bf : (⟨2, ![1, Fo]⟩ : Shape).Broadcasts ⟨2, ![Nn, Fo]⟩) (r : Fin Nn) (q : Fin H) :
    matmul d2 p2
        (addf (matmul d1 p1 (shapeCast ⟨2, ![Nn, Fi]⟩ x cx) Fm (constant (F := Ideal) ⟨2, ![Nn, Fo]⟩ .f32 0x00000000#32))
          (broadcastTo ⟨2, ![Nn, Fo]⟩ (shapeCast ⟨2, ![1, Fo]⟩ f cf) bf))
        W (constant (F := Ideal) ⟨2, ![Nn, H]⟩ .f32 0x00000000#32) (ix2 r q)
      = projRow (fun a => x (ix2 r a)) Fm (fun k => f (ix2 (0 : Fin 1) k)) W q := by
  refine (kmm_at h2 p2 _ W r q).trans ?_
  unfold projRow
  refine Finset.sum_congr rfl fun k _ => ?_
  rw [addf_apply, kmm_at h1 p1 _ Fm r k, krow_at f cf bf r k, shapeCast_self]

/-- A graph-convolution layer followed by the next weight, as a kernel writes it on a stripe of the adjacency's
    rows — relu(a·S + b)·W, the stripe and S taken in a narrower float format, both products into zeros, the bias a
    repeated row, the relu a maximum with a splat zero — at (r, q). -/
theorem kernel_layer_at {R Nn H O : Nat}
    {d1 : DotDims ⟨2, ![R, Nn]⟩ ⟨2, ![Nn, H]⟩ ⟨2, ![R, H]⟩} {d2 : DotDims ⟨2, ![R, H]⟩ ⟨2, ![H, O]⟩ ⟨2, ![R, O]⟩}
    (h1 : Plain d1) (h2 : Plain d2) (p1 p2 : Option ContractPrecision)
    (a : FVec Ideal ⟨2, ![R, Nn]⟩ .f32) (S : FVec Ideal ⟨2, ![Nn, H]⟩ .bf16) (b : FVec Ideal ⟨2, ![1, H]⟩ .f32)
    (W : FVec Ideal ⟨2, ![H, O]⟩ .f32) (ht : FTy.bf16.bits < FTy.f32.bits)
    (cS : (⟨2, ![Nn, H]⟩ : Shape).ShapeCasts ⟨2, ![Nn, H]⟩) (cb : (⟨2, ![1, H]⟩ : Shape).ShapeCasts ⟨2, ![1, H]⟩)
    (bb : (⟨2, ![1, H]⟩ : Shape).Broadcasts ⟨2, ![R, H]⟩) (r : Fin R) (q : Fin O) :
    matmul d2 p2
        (maximumf
          (addf (matmul d1 p1 (truncf .bf16 a ht) (shapeCast ⟨2, ![Nn, H]⟩ S cS)
              (constant (F := Ideal) ⟨2, ![R, H]⟩ .f32 0x00000000#32))
            (broadcastTo ⟨2, ![R, H]⟩ (shapeCast ⟨2, ![1, H]⟩ b cb) bb))
          (broadcast ⟨2, ![R, H]⟩ (Scalar.ofBits (F := Ideal) .f32 0x00000000#32)))
        W (constant (F := Ideal) ⟨2, ![R, O]⟩ .f32 0x00000000#32) (ix2 r q)
      = layerRow (fun k => a (ix2 r k)) S (fun h => b (ix2 (0 : Fin 1) h)) W q := by
  refine (kmm_at h2 p2 _ W r q).trans ?_
  unfold layerRow
  refine Finset.sum_congr rfl fun h _ => ?_
  rw [maximumf_apply, addf_apply, kmm_at h1 p1 _ _ r h, krow_at b cb bb r h, shapeCast_self]
  rfl

end Kernel

section Host

/-- The projection stage as a host program writes it — two dots, the bias vector broadcast to a row and then down
    the rows — at (r, q). -/
theorem host_proj_at {Nn Fi Fo H : Nat}
    {d1 : DotDims ⟨2, ![Nn, Fi]⟩ ⟨2, ![Fi, Fo]⟩ ⟨2, ![Nn, Fo]⟩} {d2 : DotDims ⟨2, ![Nn, Fo]⟩ ⟨2, ![Fo, H]⟩ ⟨2, ![Nn, H]⟩}
    (h1 : Plain d1) (h2 : Plain d2) (p1 p2 : Option ContractPrecision)
    (x : FVec Ideal ⟨2, ![Nn, Fi]⟩ .f32) (Fm : FVec Ideal ⟨2, ![Fi, Fo]⟩ .f32) (f : FVec Ideal ⟨1, ![Fo]⟩ .f32)
    (W : FVec Ideal ⟨2, ![Fo, H]⟩ .f32)
    (b1 : (⟨1, ![Fo]⟩ : Shape).BroadcastsInDim ⟨2, ![1, Fo]⟩ ![1])
    (b2 : (⟨2, ![1, Fo]⟩ : Shape).BroadcastsInDim ⟨2, ![Nn, Fo]⟩ ![0, 1]) (r : Fin Nn) (q : Fin H) :
    Host.dotGeneral d2 p2
        (addf (Host.dotGeneral d1 p1 x Fm)
          (broadcastInDim ⟨2, ![Nn, Fo]⟩ ![0, 1] b2 (broadcastInDim ⟨2, ![1, Fo]⟩ ![1] b1 f)))
        W (ix2 r q)
      = projRow (fun a => x (ix2 r a)) Fm (fun k => f (ix1 k)) W q := by
  refine (dotGeneral_at d2 h2.lc h2.rc h2.ln h2.rn h2.lb h2.rb p2 _ W r q).trans ?_
  unfold projRow
  refine Finset.sum_congr rfl fun k _ => ?_
  rw [addf_apply, dotGeneral_at d1 h1.lc h1.rc h1.ln h1.rn h1.lb h1.rb p1 x Fm r k, bcastInDim_vecRows_apply]

/-- A graph-convolution layer followed by the next weight, as a host program writes it on the whole adjacency
    matrix — two dots, the bias vector broadcast, the relu a maximum with a broadcast scalar zero — at (r, q). -/
theorem host_layer_at {Nn H O : Nat}
    {d1 : DotDims ⟨2, ![Nn, Nn]⟩ ⟨2, ![Nn, H]⟩ ⟨2, ![Nn, H]⟩} {d2 : DotDims ⟨2, ![Nn, H]⟩ ⟨2, ![H, O]⟩ ⟨2, ![Nn, O]⟩}
    (h1 : Plain d1) (h2 : Plain d2) (p1 p2 : Option ContractPrecision)
    (A : FVec Ideal ⟨2, ![Nn, Nn]⟩ .f32) (S : FVec Ideal ⟨2, ![Nn, H]⟩ .f32) (b : FVec Ideal ⟨1, ![H]⟩ .f32)
    (W : FVec Ideal ⟨2, ![H, O]⟩ .f32)
    (b1 : (⟨1, ![H]⟩ : Shape).BroadcastsInDim ⟨2, ![1, H]⟩ ![1])
    (b2 : (⟨2, ![1, H]⟩ : Shape).BroadcastsInDim ⟨2, ![Nn, H]⟩ ![0, 1])
    (b0 : (⟨0, ![]⟩ : Shape).BroadcastsInDim ⟨2, ![Nn, H]⟩ ![]) (r : Fin Nn) (q : Fin O) :
    Host.dotGeneral d2 p2
        (maximumf
          (addf (Host.dotGeneral d1 p1 A S)
            (broadcastInDim ⟨2, ![Nn, H]⟩ ![0, 1] b2 (broadcastInDim ⟨2, ![1, H]⟩ ![1] b1 b)))
          (broadcastInDim ⟨2, ![Nn, H]⟩ ![] b0 (constant (F := Ideal) ⟨0, ![]⟩ .f32 0x00000000#32)))
        W (ix2 r q)
      = layerRow (fun k => A (ix2 r k)) S (fun h => b (ix1 h)) W q := by
  refine (dotGeneral_at d2 h2.lc h2.rc h2.ln h2.rn h2.lb h2.rb p2 _ W r q).trans ?_
  unfold layerRow
  refine Finset.sum_congr rfl fun h _ => ?_
  rw [maximumf_apply, addf_apply, dotGeneral_at d1 h1.lc h1.rc h1.ln h1.rn h1.lb h1.rb p1 A S r h,
    bcastInDim_vecRows_apply, bcast_const_apply]

end Host

end Cert.Gcn

end
-- ==== Proof.GcnSpec.lean ====
/-
  A TWO-LAYER GRAPH CONVOLUTION OVER THE EXTENDED REALS.

  With A the n-by-n adjacency matrix, X the node features, F, W₀, W₁, P weight matrices and f, b₀, b₁, p bias
  vectors, the network is

      out = relu(A · relu(A · ((X·F + f) · W₀) + b₀) · W₁ + b₁) · P + p.

  It is written here stage by stage, each stage a matrix whose entry (r, q) is a row function at row r of the stage's
  left factor: the projected features (X·F + f)·W₀, then relu(A·S + b₀)·W₁ of those, then relu(A·S + b₁)·P + p of
  that. The features come with a leading axis of extent one, read at coordinate 0. Both programs multiply in this
  order — each layer's S·W is formed before it meets the adjacency matrix — so this one function is what both are
  compared with, and no product is ever re-associated.
-/
import proofs.«156635_g3221225472201_cont_8to1_b_1787_6_alg».proof.Proof.LibGcnLayerReads

noncomputable section

open scoped BigOperators

namespace Cert.Gcn

open Idealize.ShloMosaic Idealize.ShloMosaic.ValueIdx

section Network

variable {Nn Fi Fo H O C : Nat}
variable (X : (⟨3, ![1, Nn, Fi]⟩ : Shape).Idx → EReal) (A : (⟨2, ![Nn, Nn]⟩ : Shape).Idx → EReal)
  (Fm : (⟨2, ![Fi, Fo]⟩ : Shape).Idx → EReal) (f : (⟨1, ![Fo]⟩ : Shape).Idx → EReal)
  (W0 : (⟨2, ![Fo, H]⟩ : Shape).Idx → EReal) (b0 : (⟨1, ![H]⟩ : Shape).Idx → EReal)
  (W1 : (⟨2, ![H, O]⟩ : Shape).Idx → EReal) (b1 : (⟨1, ![O]⟩ : Shape).Idx → EReal)
  (P : (⟨2, ![O, C]⟩ : Shape).Idx → EReal) (p : (⟨1, ![C]⟩ : Shape).Idx → EReal)

/-- The projected features (X·F + f)·W₀, as a matrix. -/
def support0 : (⟨2, ![Nn, H]⟩ : Shape).Idx → EReal := fun i =>
  projRow (fun a => X (ix3 (0 : Fin 1) (i 0) a)) Fm (fun k => f (ix1 k)) W0 (i 1)

/-- relu(A·support0 + b₀)·W₁, as a matrix. -/
def support1 : (⟨2, ![Nn, O]⟩ : Shape).Idx → EReal := fun i =>
  layerRow (fun k => A (ix2 (i 0) k)) (support0 X Fm f W0) (fun h => b0 (ix1 h)) W1 (i 1)

/-- The network's output relu(A·support1 + b₁)·P + p, as a matrix. -/
def network : (⟨2, ![Nn, C]⟩ : Shape).Idx → EReal := fun i =>
  layerRow (fun k => A (ix2 (i 0) k)) (support1 X A Fm f W0 b0 W1) (fun h => b1 (ix1 h)) P (i 1) + p (ix1 (i 1))

end Network

end Cert.Gcn

end
-- ==== Proof.GcnReference.lean ====
/-
  THE REFERENCE PROGRAM COMPUTES THE NETWORK.

  The reference takes the whole adjacency matrix at once: it projects the features, and twice multiplies by the
  adjacency matrix, adds a bias, applies the relu and multiplies by the next weight; then adds the last bias. Stage
  by stage its result is the specification's: the projected features are `support0`, the first layer followed by
  the second weight is `support1`, and its output is `network`. At each entry a stage is one of the two row
  functions, read in the host's spelling; the feature array's leading axis of extent one is dropped by a reshape,
  which at (r, a) reads the array at (0, r, a).
-/
import proofs.«156635_g3221225472201_cont_8to1_b_1787_6_alg».proof.Proof.Gen.ReferenceIdeal.Read
import proofs.«156635_g3221225472201_cont_8to1_b_1787_6_alg».proof.Proof.GcnSpec

noncomputable section

open scoped BigOperators

namespace Cert.Gcn.Reference

open Idealize.ShloMosaic Idealize.ShloMosaic.ValueIdx Cert.Lib Cert.Gcn
open Cert.ReferenceIdeal Cert.ReferenceIdeal.Gen Cert.ReferenceIdeal.Read

/-! The reference's five products are plain ones. -/

theorem plain_xF : Plain dot_S10000x128_S128x128_S10000x128_1_0_0_1_n_n := ⟨rfl, rfl, rfl, rfl, rfl, rfl⟩
theorem plain_AS0 : Plain dot_S10000x10000_S10000x128_S10000x128_1_0_0_1_n_n := ⟨rfl, rfl, rfl, rfl, rfl, rfl⟩
theorem plain_hW1 : Plain dot_S10000x128_S128x64_S10000x64_1_0_0_1_n_n := ⟨rfl, rfl, rfl, rfl, rfl, rfl⟩
theorem plain_AS1 : Plain dot_S10000x10000_S10000x64_S10000x64_1_0_0_1_n_n := ⟨rfl, rfl, rfl, rfl, rfl, rfl⟩
theorem plain_hP : Plain dot_S10000x64_S64x16_S10000x16_1_0_0_1_n_n := ⟨rfl, rfl, rfl, rfl, rfl, rfl⟩

variable (x0 : (⟨S1x10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))
  (x8 : (⟨S64x16, .f32⟩ : BufTy).Contents (Elt Ideal)) (x9 : (⟨S16, .f32⟩ : BufTy).Contents (Elt Ideal))

/-- The reference's projected features (X·F + f)·W₀ are the specification's. -/
theorem support0_eq : val_main_v5 (F := Ideal) x0 x2 x3 x4 = support0 x0 x2 x3 x4 := by
  funext i
  obtain ⟨r, q, rfl⟩ : ∃ (r : Fin 10000) (q : Fin 128), i = ix2 r q := ⟨i 0, i 1, eq_ix2 i⟩
  refine (host_proj_at plain_xF plain_xF none none (val_main_v0 (F := Ideal) x0) x2 x3 x4
    bcast_S128_S1x128_1 bcast_S1x128_S10000x128_0_1 r q).trans ?_
  show projRow (fun a => val_main_v0 (F := Ideal) x0 (ix2 r a)) x2 (fun k => x3 (ix1 k)) x4 q
      = projRow (fun a => x0 (ix3 (0 : Fin 1) r a)) x2 (fun k => x3 (ix1 k)) x4 q
  refine congrArg (fun x => projRow x x2 (fun k => x3 (ix1 k)) x4 q) (funext fun a => ?_)
  exact shapeCast_1ab_ab_apply x0 shapeCasts_S1x10000x128_S10000x128 r a

/-- The reference's first layer followed by the second weight, relu(A·support0 + b₀)·W₁, is the specification's. -/
theorem support1_eq : val_main_v11 (F := Ideal) x0 x1 x2 x3 x4 x5 x6 = support1 x0 x1 x2 x3 x4 x5 x6 := by
  funext i
  obtain ⟨r, q, rfl⟩ : ∃ (r : Fin 10000) (q : Fin 64), i = ix2 r q := ⟨i 0, i 1, eq_ix2 i⟩
  refine (host_layer_at plain_AS0 plain_hW1 none none x1 (val_main_v5 (F := Ideal) x0 x2 x3 x4) x5 x6
    bcast_S128_S1x128_1 bcast_S1x128_S10000x128_0_1 bcast_S_S10000x128 r q).trans ?_
  rw [support0_eq]
  rfl

/-- The reference's output relu(A·support1 + b₁)·P + p is the specification's network. -/
theorem network_eq :
    val_main_v20 (F := Ideal) x0 x1 x2 x3 x4 x5 x6 x7 x8 x9 = network x0 x1 x2 x3 x4 x5 x6 x7 x8 x9 := by
  funext i
  obtain ⟨r, q, rfl⟩ : ∃ (r : Fin 10000) (q : Fin 16), i = ix2 r q := ⟨i 0, i 1, eq_ix2 i⟩
  refine (congrArg₂ (· + ·)
    ((host_layer_at plain_AS1 plain_hP none none x1 (val_main_v11 (F := Ideal) x0 x1 x2 x3 x4 x5 x6) x7 x8
      bcast_S64_S1x64_1 bcast_S1x64_S10000x64_0_1 bcast_S_S10000x64 r q))
    (bcastInDim_vecRows_apply bcast_S16_S1x16_1 bcast_S1x16_S10000x16_0_1 x9 r q)).trans ?_
  rw [support1_eq]
  rfl

end Cert.Gcn.Reference

end
-- ==== Proof.GcnRun.lean ====
/-
  THE KERNEL PROGRAM'S RUN, WITH EVERY BUFFER NAMED.

  The program is a stretch of host reshapes followed by three kernel launches. Its run is taken segment by
  segment: after each segment every buffer that outlives a launch holds a known array — the launch contents pushed
  through the reshapes, then through each launch's write-backs in turn. The last of these valuations, `W4`, is what
  memory holds when the program returns. Here the run is stated with that whole valuation in its conclusion: every
  weakly fair execution terminates, nothing faults, and every such buffer ends at `W4`'s array. Two consequences
  are read off: the result buffer ends at `W4`'s array for it, and each argument ends as launched.
-/
import proofs.«156635_g3221225472201_cont_8to1_b_1787_6_alg».proof.Proof.Gen.KernelIdeal.Frame

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    in every final state each buffer that outlives a launch holds the last boundary's array for it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer is among those that outlive a launch. -/
theorem result_mem : Proc.devRef .tc main_v7 ∈ Pipeline.ucRefs τ sig := mem_uc main_v7 (by decide)

/-- The run, read at the result and at the arguments: the result buffer ends at the last boundary's array for it, and
    every argument ends as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ result_mem,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_boundary m ρ)

end Cert.Gcn.Run

end
-- ==== Proof.GcnPayloads.lean ====
/-
  WHAT EACH KERNEL BODY STORES, AT AN ENTRY.

  Each of the three kernel bodies stores one block. The projection kernel stores (x·F + f)·W₀ for the whole feature
  matrix; the first pass stores, for a stripe of 400 rows of the adjacency matrix, relu(a·S + b)·W; the second pass
  stores the same with the last bias added. The stripe and the matrix S enter the first product in a narrower float
  format, and the two earlier kernels store their result in it: on the extended reals a change of format changes
  nothing. So at entry (r, q) of its block a body stores the specification's row function at row r of what it
  loaded as left factor, the bias read off the [1, n] row it loaded.
-/
import proofs.«156635_g3221225472201_cont_8to1_b_1787_6_alg».proof.Proof.Gen.KernelIdeal.Skeleton
import proofs.«156635_g3221225472201_cont_8to1_b_1787_6_alg».proof.Proof.LibGcnLayerReads

noncomputable section

open scoped BigOperators

namespace Cert.Gcn.Kernel

open Idealize.ShloMosaic Idealize.ShloMosaic.ValueIdx Cert.Lib Cert.Gcn
open Cert.KernelIdeal Cert.KernelIdeal.Gen

/-! The kernels' five products are plain ones. -/

theorem plain_xF : Plain dot_S10000x128_S128x128_S10000x128_1_0_0_1_n_n := ⟨rfl, rfl, rfl, rfl, rfl, rfl⟩
theorem plain_aS0 : Plain dot_S400x10000_S10000x128_S400x128_1_0_0_1_n_n := ⟨rfl, rfl, rfl, rfl, rfl, rfl⟩
theorem plain_hW1 : Plain dot_S400x128_S128x64_S400x64_1_0_0_1_n_n := ⟨rfl, rfl, rfl, rfl, rfl, rfl⟩
theorem plain_aS1 : Plain dot_S400x10000_S10000x64_S400x64_1_0_0_1_n_n := ⟨rfl, rfl, rfl, rfl, rfl, rfl⟩
theorem plain_hP : Plain dot_S400x64_S64x16_S400x16_1_0_0_1_n_n := ⟨rfl, rfl, rfl, rfl, rfl, rfl⟩

/-- The projection kernel stores (x·F + f)·W₀: at (r, q), `projRow` at row r of the features it loaded. -/
theorem proj_stored_at (v0 : FVec Ideal S10000x128 .f32) (v2 : FVec Ideal S128x128 .f32) (v4 : FVec Ideal S1x128 .f32)
    (v8 : FVec Ideal S128x128 .f32) (r : Fin 10000) (q : Fin 128) :
    k0_pay1 (F := Ideal) v0 v2 v4 v8 (ix2 r q)
      = projRow (fun a => v0 (ix2 r a)) v2 (fun k => v4 (ix2 (0 : Fin 1) k)) v8 q :=
  kernel_proj_at plain_xF plain_xF (some .fp32) (some .fp32) v0 v2 v4 v8 shapeCasts_S10000x128_S10000x128
    shapeCasts_S1x128_S1x128 broadcasts_S1x128_S10000x128 r q

/-- The first pass stores relu(a·S + b)·W₁ for its stripe a: at (r, q), `layerRow` at row r of the stripe. -/
theorem passA_stored_at (v0 : FVec Ideal S400x10000 .f32) (v2 : FVec Ideal S10000x128 .bf16) (v5 : FVec Ideal S1x128 .f32)
    (v11 : FVec Ideal S128x64 .f32) (r : Fin 400) (q : Fin 64) :
    k1_pay1 (F := Ideal) v0 v2 v5 v11 (ix2 r q)
      = layerRow (fun k => v0 (ix2 r k)) v2 (fun h => v5 (ix2 (0 : Fin 1) h)) v11 q :=
  kernel_layer_at plain_aS0 plain_hW1 none (some .fp32) v0 v2 v5 v11 bitsLt_bf16_f32 shapeCasts_S10000x128_S10000x128
    shapeCasts_S1x128_S1x128 broadcasts_S1x128_S400x128 r q

/-- The second pass stores relu(a·S + b)·P + p for its stripe a: at (r, q), `layerRow` at row r of the stripe plus
    the last bias's entry q. -/
theorem passB_stored_at (v0 : FVec Ideal S400x10000 .f32) (v2 : FVec Ideal S10000x64 .bf16) (v5 : FVec Ideal S1x64 .f32)
    (v11 : FVec Ideal S64x16 .f32) (v13 : FVec Ideal S1x16 .f32) (r : Fin 400) (q : Fin 16) :
    k2_pay1 (F := Ideal) v0 v2 v5 v11 v13 (ix2 r q)
      = layerRow (fun k => v0 (ix2 r k)) v2 (fun h => v5 (ix2 (0 : Fin 1) h)) v11 q + v13 (ix2 (0 : Fin 1) q) :=
  congrArg₂ (· + ·)
    (kernel_layer_at plain_aS1 plain_hP none (some .fp32) v0 v2 v5 v11 bitsLt_bf16_f32 shapeCasts_S10000x64_S10000x64
      shapeCasts_S1x64_S1x64 broadcasts_S1x64_S400x64 r q)
    (krow_at v13 shapeCasts_S1x16_S1x16 broadcasts_S1x16_S400x16 r q)

end Cert.Gcn.Kernel

end
-- ==== Proof.GcnProj.lean ====
/-
  THE PROJECTION KERNEL: THE ARRAY IT LEAVES.

  The projection kernel runs once, on whole arrays: it has the feature matrix, the two weights and the bias row,
  and writes the whole matrix (X·F + f)·W₀. So at (r, q) the array it leaves holds the projection's row function at
  row r of the features it found, the bias read off the row it found.

  All of this is stated for whatever the buffers hold when the kernel is entered.
-/
import proofs.«156635_g3221225472201_cont_8to1_b_1787_6_alg».proof.Proof.Gen.KernelIdeal.Frame
import proofs.«156635_g3221225472201_cont_8to1_b_1787_6_alg».proof.Proof.GcnPayloads
import Idealize.ShloMosaic.Lib.Pipeline.Value

set_option maxRecDepth 16384

noncomputable section

open scoped BigOperators

namespace Cert.Gcn.Proj

open Idealize.ShloMosaic Idealize.ShloMosaic.TcCoe Idealize.SL.Sem Idealize.ShloMosaic.ValueIdx
open Idealize.ShloMosaic.Pipeline (Dat)
open Cert.Gcn Cert.Gcn.Kernel Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every operand's one block sits at the origin. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! Each operand is taken whole. -/

theorem features_block (c : Dev nD) (t : Fin cfg0.N) : iblk0 V c 0 t = V c main_v0 := by
  obtain ⟨e0, e1, -⟩ := idx t
  funext x
  unfold iblk0
  rw [View.read_apply]
  show V c main_v0 _ = V c main_v0 x
  congr 1
  funext a
  apply Fin.ext
  match a with
  | ⟨0, _⟩ => show win0_0.index t (0 : Fin 2) * 10000 + 1 * (x 0).val = (x 0).val; rw [e0]; omega
  | ⟨1, _⟩ => show win0_0.index t (1 : Fin 2) * 128 + 1 * (x 1).val = (x 1).val; rw [e1]; omega

theorem weightF_block (c : Dev nD) (t : Fin cfg0.N) : iblk0 V c 1 t = V c main_arg2 := by
  obtain ⟨-, -, e0, e1, -⟩ := idx t
  funext x
  unfold iblk0
  rw [View.read_apply]
  show V c main_arg2 _ = V c main_arg2 x
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

theorem bias_block (c : Dev nD) (t : Fin cfg0.N) : iblk0 V c 2 t = V c main_v1 := by
  obtain ⟨-, -, -, -, e0, e1, -⟩ := idx t
  funext x
  unfold iblk0
  rw [View.read_apply]
  show V c main_v1 _ = V c main_v1 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

theorem weightW_block (c : Dev nD) (t : Fin cfg0.N) : iblk0 V c 3 t = V c main_arg4 := by
  obtain ⟨-, -, -, -, -, -, e0, e1, -⟩ := idx t
  funext x
  unfold iblk0
  rw [View.read_apply]
  show V c main_arg4 _ = V c main_arg4 x
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- (X·F + f)·W₀ of what the kernel finds in its four operand buffers, entry by entry. -/
def result (c : Dev nD) : S10000x128.Idx → Elt Ideal .bf16 := fun i =>
  projRow (fun a => (V c main_v0 : S10000x128.Idx → Elt Ideal .f32) (ix2 (i 0) a))
    (V c main_arg2 : S128x128.Idx → Elt Ideal .f32)
    (fun k => (V c main_v1 : S1x128.Idx → Elt Ideal .f32) (ix2 (0 : Fin 1) k))
    (V c main_arg4 : S128x128.Idx → Elt Ideal .f32) (i 1)

/-- What the one point writes back is `result`. -/
theorem flushed_eq (c : Dev nD) (t : Fin cfg0.N) :
    (dat0 (F := Ideal) V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz,
    View.ld_unit_zero (S := S1x128) hz]
  funext j
  have hj0 : (j 0).val < 10000 := (j 0).isLt
  have hj1 : (j 1).val < 128 := (j 1).isLt
  obtain ⟨-, -, -, -, -, -, -, -, e0, e1⟩ := idx t
  show k0_pay1 (iblk0 V c 0 t) (iblk0 V c 1 t) (iblk0 V c 2 t) (iblk0 V c 3 t) j
    = result V c (((cfg0.win 4).blk t).view.emb j)
  have hemb : ((cfg0.win 4).blk t).view.emb j
      = ix2 (⟨(j 0).val, hj0⟩ : Fin 10000) (⟨(j 1).val, hj1⟩ : Fin 128) := by
    funext a
    apply Fin.ext
    match a with
    | ⟨0, _⟩ => show win0_4.index t (0 : Fin 2) * 10000 + 1 * (j 0).val = (j 0).val; rw [e0]; omega
    | ⟨1, _⟩ => show win0_4.index t (1 : Fin 2) * 128 + 1 * (j 1).val = (j 1).val; rw [e1]; omega
  have hj : j = ix2 (⟨(j 0).val, hj0⟩ : Fin 10000) (⟨(j 1).val, hj1⟩ : Fin 128) := by
    funext a
    match a with
    | ⟨0, _⟩ => rfl
    | ⟨1, _⟩ => rfl
  rw [hemb]
  refine (congrArg (k0_pay1 (iblk0 V c 0 t) (iblk0 V c 1 t) (iblk0 V c 2 t) (iblk0 V c 3 t)) hj).trans ?_
  refine (proj_stored_at (iblk0 V c 0 t) (iblk0 V c 1 t) (iblk0 V c 2 t) (iblk0 V c 3 t) _ _).trans ?_
  rw [features_block V c t, weightF_block V c t, bias_block V c t, weightW_block V c t]
  rfl

/-- The one block is the whole array. -/
theorem covered (c : Dev nD) (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨-, -, -, -, -, -, -, -, e0, e1⟩ := idx t0_0
  refine ⟨t0_0, flush0_4 _, ?_⟩
  show i ∈ ((View.whole main_v5).slice (win0_4.rect t0_0)).set
  rw [View.set_slice_whole, Rect.mem_set_unit]
  intro a
  match a with
  | ⟨0, _⟩ =>
    show win0_4.index t0_0 (0 : Fin 2) * 10000 ≤ (i 0).val ∧ (i 0).val < win0_4.index t0_0 (0 : Fin 2) * 10000 + 10000
    rw [e0]
    omega
  | ⟨1, _⟩ =>
    show win0_4.index t0_0 (1 : Fin 2) * 128 ≤ (i 1).val ∧ (i 1).val < win0_4.index t0_0 (1 : Fin 2) * 128 + 128
    rw [e1]
    omega

/-- The array the kernel leaves: (X·F + f)·W₀ of what it found in its operand buffers. -/
theorem array_eq (c : Dev nD) : (dat0 (F := Ideal) V c).arrAt 4 cfg0.N = result V c :=
  (dat0 V c).arrAt_eq_of_cover 4 (result V c) (fun t _ => flushed_eq V c t) (covered c)

end Cert.Gcn.Proj

end
-- ==== Proof.GcnPassA.lean ====
/-
  THE FIRST PASS OVER THE ADJACENCY MATRIX: THE ARRAY IT LEAVES.

  The pass walks the adjacency matrix in 25 stripes of 400 rows. At stripe t it has the stripe, the whole matrix S
  of projected features, the bias row and the weight, and writes rows 400·t … 400·t + 399 of its result. Row r of
  the stripe is row 400·t + r of the matrix, and the other three operands are the same at every stripe, so what it
  writes at (400·t + r, q) is the layer's row function at row 400·t + r of the adjacency matrix: the same function
  of the row whichever stripe the row falls in. The 25 stripes tile the 10000 rows — row R lies in stripe R / 400 —
  so the array the pass leaves is relu(A·S + b)·W at every entry.

  All of this is stated for whatever the buffers hold when the pass is entered.
-/
import proofs.«156635_g3221225472201_cont_8to1_b_1787_6_alg».proof.Proof.Gen.KernelIdeal.Frame
import proofs.«156635_g3221225472201_cont_8to1_b_1787_6_alg».proof.Proof.GcnPayloads
import Idealize.ShloMosaic.Lib.Pipeline.Value

set_option maxRecDepth 16384

noncomputable section

open scoped BigOperators

namespace Cert.Gcn.PassA

open Idealize.ShloMosaic Idealize.ShloMosaic.TcCoe Idealize.SL.Sem Idealize.ShloMosaic.ValueIdx
open Idealize.ShloMosaic.Pipeline (Dat)
open Cert.Gcn Cert.Gcn.Kernel Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each operand's block sits at stripe t: the adjacency stripe and the result at block row t, everything
    else at the origin. Decided over the 25 stripes. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- There are 25 stripes. -/
theorem point_lt (t : Fin cfg1.N) : t.val < 25 := (show t.val < grid1.N from t.isLt).trans_eq N_1

/-- The adjacency stripe at (r, k) is the matrix at (400·t + r, k). -/
theorem stripe_at (c : Dev nD) (t : Fin cfg1.N) (r : Fin 400) (k : Fin 10000) (R : Fin 10000)
    (hR : R.val = 400 * t.val + r.val) : iblk1 V c 0 t (ix2 r k) = V c main_arg1 (ix2 R k) := by
  obtain ⟨e0, e1, -⟩ := idx t
  unfold iblk1
  rw [View.read_apply]
  show V c main_arg1 _ = V c main_arg1 (ix2 R k)
  congr 1
  funext a
  apply Fin.ext
  match a with
  | ⟨0, _⟩ => show win1_0.index t (0 : Fin 2) * 400 + 1 * r.val = R.val; rw [e0, hR]; omega
  | ⟨1, _⟩ => show win1_0.index t (1 : Fin 2) * 10000 + 1 * k.val = k.val; rw [e1]; omega

/-- The projected features are taken whole at every stripe. -/
theorem features_block (c : Dev nD) (t : Fin cfg1.N) : iblk1 V c 1 t = V c main_v5 := by
  obtain ⟨-, -, e0, e1, -⟩ := idx t
  funext x
  unfold iblk1
  rw [View.read_apply]
  show V c main_v5 _ = V c main_v5 x
  congr 1
  funext a
  apply Fin.ext
  match a with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

/-- So is the bias row. -/
theorem bias_block (c : Dev nD) (t : Fin cfg1.N) : iblk1 V c 2 t = V c main_v2 := by
  obtain ⟨-, -, -, -, e0, e1, -⟩ := idx t
  funext x
  unfold iblk1
  rw [View.read_apply]
  show V c main_v2 _ = V c main_v2 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- And the weight. -/
theorem weight_block (c : Dev nD) (t : Fin cfg1.N) : iblk1 V c 3 t = V c main_arg6 := by
  obtain ⟨-, -, -, -, -, -, e0, e1, -⟩ := idx t
  funext x
  unfold iblk1
  rw [View.read_apply]
  show V c main_arg6 _ = V c main_arg6 x
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 64 + 1 * (x 1).val = (x 1).val; rw [e1]; omega

/-- relu(A·S + b)·W of what the pass finds in its four operand buffers, entry by entry. -/
def result (c : Dev nD) : S10000x64.Idx → Elt Ideal .bf16 := fun i =>
  layerRow (fun k => (V c main_arg1 : S10000x10000.Idx → Elt Ideal .f32) (ix2 (i 0) k))
    (V c main_v5 : S10000x128.Idx → Elt Ideal .bf16)
    (fun h => (V c main_v2 : S1x128.Idx → Elt Ideal .f32) (ix2 (0 : Fin 1) h))
    (V c main_arg6 : S128x64.Idx → Elt Ideal .f32) (i 1)

/-- What stripe t writes back is rows 400·t … 400·t + 399 of `result`. -/
theorem flushed_eq (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x64) hz]
  funext j
  have hj0 : (j 0).val < 400 := (j 0).isLt
  have hj1 : (j 1).val < 64 := (j 1).isLt
  have ht := point_lt t
  obtain ⟨-, -, -, -, -, -, -, -, e0, e1⟩ := idx t
  show k1_pay1 (iblk1 V c 0 t) (iblk1 V c 1 t) (iblk1 V c 2 t) (iblk1 V c 3 t) j
    = result V c (((cfg1.win 4).blk t).view.emb j)
  have hemb : ((cfg1.win 4).blk t).view.emb j
      = ix2 (⟨400 * t.val + (j 0).val, by omega⟩ : Fin 10000) (⟨(j 1).val, hj1⟩ : Fin 64) := by
    funext a
    apply Fin.ext
    match a with
    | ⟨0, _⟩ => show win1_4.index t (0 : Fin 2) * 400 + 1 * (j 0).val = 400 * t.val + (j 0).val; rw [e0]; omega
    | ⟨1, _⟩ => show win1_4.index t (1 : Fin 2) * 64 + 1 * (j 1).val = (j 1).val; rw [e1]; omega
  have hj : j = ix2 (⟨(j 0).val, hj0⟩ : Fin 400) (⟨(j 1).val, hj1⟩ : Fin 64) := by
    funext a
    match a with
    | ⟨0, _⟩ => rfl
    | ⟨1, _⟩ => rfl
  rw [hemb]
  refine (congrArg (k1_pay1 (iblk1 V c 0 t) (iblk1 V c 1 t) (iblk1 V c 2 t) (iblk1 V c 3 t)) hj).trans ?_
  refine (passA_stored_at (iblk1 V c 0 t) (iblk1 V c 1 t) (iblk1 V c 2 t) (iblk1 V c 3 t) _ _).trans ?_
  rw [features_block V c t, bias_block V c t, weight_block V c t]
  refine congrArg (fun a => layerRow a (V c main_v5 : S10000x128.Idx → Elt Ideal .bf16)
    (fun h => (V c main_v2 : S1x128.Idx → Elt Ideal .f32) (ix2 (0 : Fin 1) h))
    (V c main_arg6 : S128x64.Idx → Elt Ideal .f32) (⟨(j 1).val, hj1⟩ : Fin 64)) (funext fun k => ?_)
  exact stripe_at V c t _ k _ rfl

/-- Every row lies in a stripe: row R in stripe R / 400. -/
theorem covered (c : Dev nD) (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have hN : (i 0).val / 400 < grid1.N := by rw [N_1]; omega
  obtain ⟨-, -, -, -, -, -, -, -, e0, e1⟩ := idx (⟨(i 0).val / 400, hN⟩ : Fin cfg1.N)
  refine ⟨⟨(i 0).val / 400, hN⟩, flush1_4 _, ?_⟩
  show i ∈ ((View.whole main_v6).slice (win1_4.rect ⟨(i 0).val / 400, hN⟩)).set
  rw [View.set_slice_whole, Rect.mem_set_unit]
  intro a
  match a with
  | ⟨0, _⟩ =>
    show win1_4.index ⟨(i 0).val / 400, hN⟩ (0 : Fin 2) * 400 ≤ (i 0).val
      ∧ (i 0).val < win1_4.index ⟨(i 0).val / 400, hN⟩ (0 : Fin 2) * 400 + 400
    rw [e0]
    show (i 0).val / 400 * 400 ≤ (i 0).val ∧ (i 0).val < (i 0).val / 400 * 400 + 400
    omega
  | ⟨1, _⟩ =>
    show win1_4.index ⟨(i 0).val / 400, hN⟩ (1 : Fin 2) * 64 ≤ (i 1).val
      ∧ (i 1).val < win1_4.index ⟨(i 0).val / 400, hN⟩ (1 : Fin 2) * 64 + 64
    rw [e1]
    omega

/-- The array the pass leaves: relu(A·S + b)·W of what it found in its operand buffers. -/
theorem array_eq (c : Dev nD) : (dat1 (F := Ideal) V c).arrAt 4 cfg1.N = result V c :=
  (dat1 V c).arrAt_eq_of_cover 4 (result V c) (fun t _ => flushed_eq V c t) (covered c)

end Cert.Gcn.PassA

end
-- ==== Proof.GcnPassB.lean ====
/-
  THE SECOND PASS OVER THE ADJACENCY MATRIX: THE ARRAY IT LEAVES.

  Like the first pass it walks the adjacency matrix in 25 stripes of 400 rows, now against the first pass's result
  S, and after the last product it adds the last bias. At stripe t it writes rows 400·t … 400·t + 399 of the
  output; row r of the stripe is row 400·t + r of the matrix, and the other operands are the same at every stripe.
  So at (R, q) the array it leaves holds the layer's row function at row R of the adjacency matrix plus the last
  bias's entry q: relu(A·S + b)·P + p at every entry, the stripes tiling the rows (row R lies in stripe R / 400).

  All of this is stated for whatever the buffers hold when the pass is entered.
-/
import proofs.«156635_g3221225472201_cont_8to1_b_1787_6_alg».proof.Proof.Gen.KernelIdeal.Frame
import proofs.«156635_g3221225472201_cont_8to1_b_1787_6_alg».proof.Proof.GcnPayloads
import Idealize.ShloMosaic.Lib.Pipeline.Value

set_option maxRecDepth 16384

noncomputable section

open scoped BigOperators

namespace Cert.Gcn.PassB

open Idealize.ShloMosaic Idealize.ShloMosaic.TcCoe Idealize.SL.Sem Idealize.ShloMosaic.ValueIdx
open Idealize.ShloMosaic.Pipeline (Dat)
open Cert.Gcn Cert.Gcn.Kernel Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each operand's block sits at stripe t: the adjacency stripe and the output at block row t, everything
    else at the origin. Decided over the 25 stripes. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- There are 25 stripes. -/
theorem point_lt (t : Fin cfg2.N) : t.val < 25 := (show t.val < grid2.N from t.isLt).trans_eq N_2

/-- The adjacency stripe at (r, k) is the matrix at (400·t + r, k). -/
theorem stripe_at (c : Dev nD) (t : Fin cfg2.N) (r : Fin 400) (k : Fin 10000) (R : Fin 10000)
    (hR : R.val = 400 * t.val + r.val) : iblk2 V c 0 t (ix2 r k) = V c main_arg1 (ix2 R k) := by
  obtain ⟨e0, e1, -⟩ := idx t
  unfold iblk2
  rw [View.read_apply]
  show V c main_arg1 _ = V c main_arg1 (ix2 R k)
  congr 1
  funext a
  apply Fin.ext
  match a with
  | ⟨0, _⟩ => show win2_0.index t (0 : Fin 2) * 400 + 1 * r.val = R.val; rw [e0, hR]; omega
  | ⟨1, _⟩ => show win2_0.index t (1 : Fin 2) * 10000 + 1 * k.val = k.val; rw [e1]; omega

/-! The other four operands are taken whole at every stripe. -/

theorem support_block (c : Dev nD) (t : Fin cfg2.N) : iblk2 V c 1 t = V c main_v6 := by
  obtain ⟨-, -, e0, e1, -⟩ := idx t
  funext x
  unfold iblk2
  rw [View.read_apply]
  show V c main_v6 _ = V c main_v6 x
  congr 1
  funext a
  apply Fin.ext
  match a with
  | ⟨0, _⟩ => show win2_1.index t (0 : Fin 2) * 10000 + 1 * (x 0).val = (x 0).val; rw [e0]; omega
  | ⟨1, _⟩ => show win2_1.index t (1 : Fin 2) * 64 + 1 * (x 1).val = (x 1).val; rw [e1]; omega

theorem bias_block (c : Dev nD) (t : Fin cfg2.N) : iblk2 V c 2 t = V c main_v3 := by
  obtain ⟨-, -, -, -, e0, e1, -⟩ := idx t
  funext x
  unfold iblk2
  rw [View.read_apply]
  show V c main_v3 _ = V c main_v3 x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 64 + 1 * (x 1).val = (x 1).val; rw [e1]; omega

theorem weight_block (c : Dev nD) (t : Fin cfg2.N) : iblk2 V c 3 t = V c main_arg8 := by
  obtain ⟨-, -, -, -, -, -, e0, e1, -⟩ := idx t
  funext x
  unfold iblk2
  rw [View.read_apply]
  show V c main_arg8 _ = V c main_arg8 x
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 16 + 1 * (x 1).val = (x 1).val; rw [e1]; omega

theorem lastBias_block (c : Dev nD) (t : Fin cfg2.N) : iblk2 V c 4 t = V c main_v4 := by
  obtain ⟨-, -, -, -, -, -, -, -, e0, e1, -⟩ := idx t
  funext x
  unfold iblk2
  rw [View.read_apply]
  show V c main_v4 _ = V c main_v4 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 16 + 1 * (x 1).val = (x 1).val; rw [e1]; omega

/-- relu(A·S + b)·P + p of what the pass finds in its five operand buffers, entry by entry. -/
def result (c : Dev nD) : S10000x16.Idx → Elt Ideal .f32 := fun i =>
  layerRow (fun k => (V c main_arg1 : S10000x10000.Idx → Elt Ideal .f32) (ix2 (i 0) k))
    (V c main_v6 : S10000x64.Idx → Elt Ideal .bf16)
    (fun h => (V c main_v3 : S1x64.Idx → Elt Ideal .f32) (ix2 (0 : Fin 1) h))
    (V c main_arg8 : S64x16.Idx → Elt Ideal .f32) (i 1)
    + (V c main_v4 : S1x16.Idx → Elt Ideal .f32) (ix2 (0 : Fin 1) (i 1))

/-- What stripe t writes back is rows 400·t … 400·t + 399 of `result`. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x64) hz,
    View.ld_unit_zero (S := S1x64) hz, View.ld_unit_zero (S := S64x16) hz, View.ld_unit_zero (S := S1x16) hz]
  funext j
  have hj0 : (j 0).val < 400 := (j 0).isLt
  have hj1 : (j 1).val < 16 := (j 1).isLt
  have ht := point_lt t
  obtain ⟨-, -, -, -, -, -, -, -, -, -, e0, e1⟩ := idx t
  show k2_pay1 (iblk2 V c 0 t) (iblk2 V c 1 t) (iblk2 V c 2 t) (iblk2 V c 3 t) (iblk2 V c 4 t) j
    = result V c (((cfg2.win 5).blk t).view.emb j)
  have hemb : ((cfg2.win 5).blk t).view.emb j
      = ix2 (⟨400 * t.val + (j 0).val, by omega⟩ : Fin 10000) (⟨(j 1).val, hj1⟩ : Fin 16) := by
    funext a
    apply Fin.ext
    match a with
    | ⟨0, _⟩ => show win2_5.index t (0 : Fin 2) * 400 + 1 * (j 0).val = 400 * t.val + (j 0).val; rw [e0]; omega
    | ⟨1, _⟩ => show win2_5.index t (1 : Fin 2) * 16 + 1 * (j 1).val = (j 1).val; rw [e1]; omega
  have hj : j = ix2 (⟨(j 0).val, hj0⟩ : Fin 400) (⟨(j 1).val, hj1⟩ : Fin 16) := by
    funext a
    match a with
    | ⟨0, _⟩ => rfl
    | ⟨1, _⟩ => rfl
  rw [hemb]
  refine (congrArg (k2_pay1 (iblk2 V c 0 t) (iblk2 V c 1 t) (iblk2 V c 2 t) (iblk2 V c 3 t) (iblk2 V c 4 t)) hj).trans ?_
  refine (passB_stored_at (iblk2 V c 0 t) (iblk2 V c 1 t) (iblk2 V c 2 t) (iblk2 V c 3 t) (iblk2 V c 4 t) _ _).trans ?_
  rw [support_block V c t, bias_block V c t, weight_block V c t, lastBias_block V c t]
  refine congrArg (fun a => layerRow a (V c main_v6 : S10000x64.Idx → Elt Ideal .bf16)
    (fun h => (V c main_v3 : S1x64.Idx → Elt Ideal .f32) (ix2 (0 : Fin 1) h))
    (V c main_arg8 : S64x16.Idx → Elt Ideal .f32) (⟨(j 1).val, hj1⟩ : Fin 16)
    + (V c main_v4 : S1x16.Idx → Elt Ideal .f32) (ix2 (0 : Fin 1) (⟨(j 1).val, hj1⟩ : Fin 16))) (funext fun k => ?_)
  exact stripe_at V c t _ k _ rfl

/-- Every row lies in a stripe: row R in stripe R / 400. -/
theorem covered (c : Dev nD) (i : S10000x16.Idx) :
    ∃ t : Fin cfg2.N, (cfg2.win 5).flush t = true ∧ i ∈ ((cfg2.win 5).blk t).view.set := by
  have hi0 : (i 0).val < 10000 := (i 0).isLt
  have hi1 : (i 1).val < 16 := (i 1).isLt
  have hN : (i 0).val / 400 < grid2.N := by rw [N_2]; omega
  obtain ⟨-, -, -, -, -, -, -, -, -, -, e0, e1⟩ := idx (⟨(i 0).val / 400, hN⟩ : Fin cfg2.N)
  refine ⟨⟨(i 0).val / 400, hN⟩, flush2_5 _, ?_⟩
  show i ∈ ((View.whole main_v7).slice (win2_5.rect ⟨(i 0).val / 400, hN⟩)).set
  rw [View.set_slice_whole, Rect.mem_set_unit]
  intro a
  match a with
  | ⟨0, _⟩ =>
    show win2_5.index ⟨(i 0).val / 400, hN⟩ (0 : Fin 2) * 400 ≤ (i 0).val
      ∧ (i 0).val < win2_5.index ⟨(i 0).val / 400, hN⟩ (0 : Fin 2) * 400 + 400
    rw [e0]
    show (i 0).val / 400 * 400 ≤ (i 0).val ∧ (i 0).val < (i 0).val / 400 * 400 + 400
    omega
  | ⟨1, _⟩ =>
    show win2_5.index ⟨(i 0).val / 400, hN⟩ (1 : Fin 2) * 16 ≤ (i 1).val
      ∧ (i 1).val < win2_5.index ⟨(i 0).val / 400, hN⟩ (1 : Fin 2) * 16 + 16
    rw [e1]
    omega

/-- The array the pass leaves: relu(A·S + b)·P + p of what it found in its operand buffers. -/
theorem array_eq (c : Dev nD) : (dat2 (F := Ideal) V c).arrAt 5 cfg2.N = result V c :=
  (dat2 V c).arrAt_eq_of_cover 5 (result V c) (fun t _ => flushed_eq V c t) (covered c)

end Cert.Gcn.PassB

end
-- ==== Proof.GcnChain.lean ====
/-
  THE KERNEL PROGRAM COMPUTES THE NETWORK.

  The program reshapes five of its arguments — the features lose their leading axis of extent one, each bias vector
  becomes a [1, n] row — and then launches the projection kernel and the two passes over the adjacency matrix, each
  reading what the one before it wrote. A launch changes only the array it writes: every other buffer, an operand
  it only reads included, holds after the launch what it held before. So each launch finds in its operand buffers
  the launch memory's arguments (reshaped where they were reshaped) and the previous launch's result, and its own
  result is the next stage of the specification of those: the projection kernel leaves `support0`, the first pass
  `support1`, the second pass `network`. A reshaped bias row at (0, k) is the vector's entry k, and the reshaped
  features at (r, a) are the array at (0, r, a).
-/
import proofs.«156635_g3221225472201_cont_8to1_b_1787_6_alg».proof.Proof.Gen.KernelIdeal.Frame
import proofs.«156635_g3221225472201_cont_8to1_b_1787_6_alg».proof.Proof.GcnProj
import proofs.«156635_g3221225472201_cont_8to1_b_1787_6_alg».proof.Proof.GcnPassA
import proofs.«156635_g3221225472201_cont_8to1_b_1787_6_alg».proof.Proof.GcnPassB
import proofs.«156635_g3221225472201_cont_8to1_b_1787_6_alg».proof.Proof.GcnSpec
import Idealize.ShloMosaic.Lib.ValueLayout
import Idealize.ShloMosaic.Lib.StableHlo.Run
import Idealize.ShloMosaic.PureOps.Ideal.Laws

noncomputable section

open scoped BigOperators

namespace Cert.Gcn.Chain

open Idealize.ShloMosaic Idealize.ShloMosaic.TcCoe Idealize.SL.Sem Idealize.ShloMosaic.StableHlo
open Idealize.ShloMosaic.ValueIdx
open Idealize.ShloMosaic.Pipeline (Dat)
open Cert.Gcn Cert.KernelIdeal Cert.KernelIdeal.Gen

variable (m : (ℓ : Loc nD τ sig) → Buf (Elt Ideal) ℓ) (ρ : Dev nD → PrngReg)

/-! ## After the reshapes -/

/-- The features without their leading axis. -/
theorem feats_W1 (c : Dev nD) : (W1 m ρ c (Proc.devRef .tc main_v0) : S10000x128.Idx → Elt Ideal .f32)
    = shapeCast _ (m ((c : Thread nD τ).loc main_arg0)) shapeCasts_S1x10000x128_S10000x128 := by
  dsimp only [W1, W0, hostOps0]
  after_results <;> rfl
/-- The projection's bias as a row. -/
theorem rowf_W1 (c : Dev nD) : (W1 m ρ c (Proc.devRef .tc main_v1) : S1x128.Idx → Elt Ideal .f32)
    = shapeCast _ (m ((c : Thread nD τ).loc main_arg3)) shapeCasts_S128_S1x128 := by
  dsimp only [W1, W0, hostOps0]
  after_results <;> rfl
/-- The first layer's bias as a row. -/
theorem rowb0_W1 (c : Dev nD) : (W1 m ρ c (Proc.devRef .tc main_v2) : S1x128.Idx → Elt Ideal .f32)
    = shapeCast _ (m ((c : Thread nD τ).loc main_arg5)) shapeCasts_S128_S1x128 := by
  dsimp only [W1, W0, hostOps0]
  after_results <;> rfl
/-- The second layer's bias as a row. -/
theorem rowb1_W1 (c : Dev nD) : (W1 m ρ c (Proc.devRef .tc main_v3) : S1x64.Idx → Elt Ideal .f32)
    = shapeCast _ (m ((c : Thread nD τ).loc main_arg7)) shapeCasts_S64_S1x64 := by
  dsimp only [W1, W0, hostOps0]
  after_results <;> rfl
/-- The last bias as a row. -/
theorem rowp_W1 (c : Dev nD) : (W1 m ρ c (Proc.devRef .tc main_v4) : S1x16.Idx → Elt Ideal .f32)
    = shapeCast _ (m ((c : Thread nD τ).loc main_arg9)) shapeCasts_S16_S1x16 := by
  dsimp only [W1, W0, hostOps0]
  after_results <;> rfl

/-! The adjacency matrix and the four weights are not reshaped. -/
theorem arg1_W1 (c : Dev nD) : W1 m ρ c (Proc.devRef .tc main_arg1) = m ((c : Thread nD τ).loc main_arg1) := by
  dsimp only [W1, W0, hostOps0]
  after_results <;> rfl
theorem arg2_W1 (c : Dev nD) : W1 m ρ c (Proc.devRef .tc main_arg2) = m ((c : Thread nD τ).loc main_arg2) := by
  dsimp only [W1, W0, hostOps0]
  after_results <;> rfl
theorem arg4_W1 (c : Dev nD) : W1 m ρ c (Proc.devRef .tc main_arg4) = m ((c : Thread nD τ).loc main_arg4) := by
  dsimp only [W1, W0, hostOps0]
  after_results <;> rfl
theorem arg6_W1 (c : Dev nD) : W1 m ρ c (Proc.devRef .tc main_arg6) = m ((c : Thread nD τ).loc main_arg6) := by
  dsimp only [W1, W0, hostOps0]
  after_results <;> rfl
theorem arg8_W1 (c : Dev nD) : W1 m ρ c (Proc.devRef .tc main_arg8) = m ((c : Thread nD τ).loc main_arg8) := by
  dsimp only [W1, W0, hostOps0]
  after_results <;> rfl

/-! ## What the projection kernel finds and leaves -/

theorem support0_eq (c : Dev nD) : Proj.result (V1 m ρ) c
    = support0 (m ((c : Thread nD τ).loc main_arg0)) (m ((c : Thread nD τ).loc main_arg2))
        (m ((c : Thread nD τ).loc main_arg3)) (m ((c : Thread nD τ).loc main_arg4)) := by
  funext i
  obtain ⟨r, q, rfl⟩ : ∃ (r : Fin 10000) (q : Fin 128), i = ix2 r q := ⟨i 0, i 1, eq_ix2 i⟩
  show projRow (fun a => (W1 m ρ c (Proc.devRef .tc main_v0) : S10000x128.Idx → Elt Ideal .f32) (ix2 r a))
        (W1 m ρ c (Proc.devRef .tc main_arg2) : S128x128.Idx → Elt Ideal .f32)
        (fun k => (W1 m ρ c (Proc.devRef .tc main_v1) : S1x128.Idx → Elt Ideal .f32) (ix2 (0 : Fin 1) k))
        (W1 m ρ c (Proc.devRef .tc main_arg4) : S128x128.Idx → Elt Ideal .f32) q
      = projRow (fun a => (m ((c : Thread nD τ).loc main_arg0) : S1x10000x128.Idx → Elt Ideal .f32) (ix3 (0 : Fin 1) r a))
        (m ((c : Thread nD τ).loc main_arg2) : S128x128.Idx → Elt Ideal .f32)
        (fun k => (m ((c : Thread nD τ).loc main_arg3) : S128.Idx → Elt Ideal .f32) (ix1 k))
        (m ((c : Thread nD τ).loc main_arg4) : S128x128.Idx → Elt Ideal .f32) q
  rw [feats_W1, rowf_W1, arg2_W1, arg4_W1]
  refine congrArg₂ (fun x f => projRow x (m ((c : Thread nD τ).loc main_arg2) : S128x128.Idx → Elt Ideal .f32) f
    (m ((c : Thread nD τ).loc main_arg4) : S128x128.Idx → Elt Ideal .f32) q) (funext fun a => ?_) (funext fun k => ?_)
  · exact shapeCast_1ab_ab_apply _ shapeCasts_S1x10000x128_S10000x128 r a
  · exact shapeCast_a_1a_apply _ shapeCasts_S128_S1x128 (0 : Fin 1) k

/-! ## What the first pass finds and leaves -/

/-- The adjacency matrix, which the projection kernel does not touch. -/
theorem adj_W2 (c : Dev nD) : W2 m ρ c (Proc.devRef .tc main_arg1) = m ((c : Thread nD τ).loc main_arg1) :=
  (W2_of_ne m ρ c main_arg1 (by decide)).trans (arg1_W1 m ρ c)
/-- The projected features: the projection kernel's result. -/
theorem feats_W2 (c : Dev nD) : W2 m ρ c (Proc.devRef .tc main_v5) = Proj.result (V1 m ρ) c :=
  (W2_arr m ρ c 4).trans (Proj.array_eq (V1 m ρ) c)
theorem rowb0_W2 (c : Dev nD) : W2 m ρ c (Proc.devRef .tc main_v2) = W1 m ρ c (Proc.devRef .tc main_v2) :=
  W2_of_ne m ρ c main_v2 (by decide)
theorem arg6_W2 (c : Dev nD) : W2 m ρ c (Proc.devRef .tc main_arg6) = m ((c : Thread nD τ).loc main_arg6) :=
  (W2_of_ne m ρ c main_arg6 (by decide)).trans (arg6_W1 m ρ c)

theorem support1_eq (c : Dev nD) : PassA.result (V2 m ρ) c
    = support1 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  funext i
  obtain ⟨r, q, rfl⟩ : ∃ (r : Fin 10000) (q : Fin 64), i = ix2 r q := ⟨i 0, i 1, eq_ix2 i⟩
  show layerRow (fun k => (W2 m ρ c (Proc.devRef .tc main_arg1) : S10000x10000.Idx → Elt Ideal .f32) (ix2 r k))
        (W2 m ρ c (Proc.devRef .tc main_v5) : S10000x128.Idx → Elt Ideal .bf16)
        (fun h => (W2 m ρ c (Proc.devRef .tc main_v2) : S1x128.Idx → Elt Ideal .f32) (ix2 (0 : Fin 1) h))
        (W2 m ρ c (Proc.devRef .tc main_arg6) : S128x64.Idx → Elt Ideal .f32) q
      = layerRow (fun k => (m ((c : Thread nD τ).loc main_arg1) : S10000x10000.Idx → Elt Ideal .f32) (ix2 r k))
        (support0 (m ((c : Thread nD τ).loc main_arg0)) (m ((c : Thread nD τ).loc main_arg2))
          (m ((c : Thread nD τ).loc main_arg3)) (m ((c : Thread nD τ).loc main_arg4)))
        (fun h => (m ((c : Thread nD τ).loc main_arg5) : S128.Idx → Elt Ideal .f32) (ix1 h))
        (m ((c : Thread nD τ).loc main_arg6) : S128x64.Idx → Elt Ideal .f32) q
  rw [adj_W2, feats_W2, rowb0_W2, rowb0_W1, arg6_W2, support0_eq]
  refine congrArg (fun f => layerRow (fun k => (m ((c : Thread nD τ).loc main_arg1) : S10000x10000.Idx → Elt Ideal .f32) (ix2 r k))
    (support0 (m ((c : Thread nD τ).loc main_arg0)) (m ((c : Thread nD τ).loc main_arg2))
      (m ((c : Thread nD τ).loc main_arg3)) (m ((c : Thread nD τ).loc main_arg4))) f
    (m ((c : Thread nD τ).loc main_arg6) : S128x64.Idx → Elt Ideal .f32) q) (funext fun h => ?_)
  exact shapeCast_a_1a_apply _ shapeCasts_S128_S1x128 (0 : Fin 1) h

/-! ## What the second pass finds and leaves -/

/-- The adjacency matrix, which the first pass only reads. -/
theorem adj_W3 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (adj_W2 m ρ c)
/-- The first pass's result. -/
theorem supp_W3 (c : Dev nD) : W3 m ρ c (Proc.devRef .tc main_v6) = PassA.result (V2 m ρ) c :=
  (W3_arr m ρ c 4).trans (PassA.array_eq (V2 m ρ) c)
theorem rowb1_W3 (c : Dev nD) : W3 m ρ c (Proc.devRef .tc main_v3) = W1 m ρ c (Proc.devRef .tc main_v3) :=
  (W3_of_ne m ρ c main_v3 (by decide)).trans (W2_of_ne m ρ c main_v3 (by decide))
theorem arg8_W3 (c : Dev nD) : W3 m ρ c (Proc.devRef .tc main_arg8) = m ((c : Thread nD τ).loc main_arg8) :=
  ((W3_of_ne m ρ c main_arg8 (by decide)).trans (W2_of_ne m ρ c main_arg8 (by decide))).trans (arg8_W1 m ρ c)
theorem rowp_W3 (c : Dev nD) : W3 m ρ c (Proc.devRef .tc main_v4) = W1 m ρ c (Proc.devRef .tc main_v4) :=
  (W3_of_ne m ρ c main_v4 (by decide)).trans (W2_of_ne m ρ c main_v4 (by decide))

theorem network_eq (c : Dev nD) : PassB.result (V3 m ρ) c
    = network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  funext i
  obtain ⟨r, q, rfl⟩ : ∃ (r : Fin 10000) (q : Fin 16), i = ix2 r q := ⟨i 0, i 1, eq_ix2 i⟩
  show layerRow (fun k => (W3 m ρ c (Proc.devRef .tc main_arg1) : S10000x10000.Idx → Elt Ideal .f32) (ix2 r k))
        (W3 m ρ c (Proc.devRef .tc main_v6) : S10000x64.Idx → Elt Ideal .bf16)
        (fun h => (W3 m ρ c (Proc.devRef .tc main_v3) : S1x64.Idx → Elt Ideal .f32) (ix2 (0 : Fin 1) h))
        (W3 m ρ c (Proc.devRef .tc main_arg8) : S64x16.Idx → Elt Ideal .f32) q
        + (W3 m ρ c (Proc.devRef .tc main_v4) : S1x16.Idx → Elt Ideal .f32) (ix2 (0 : Fin 1) q)
      = layerRow (fun k => (m ((c : Thread nD τ).loc main_arg1) : S10000x10000.Idx → Elt Ideal .f32) (ix2 r k))
        (support1 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)))
        (fun h => (m ((c : Thread nD τ).loc main_arg7) : S64.Idx → Elt Ideal .f32) (ix1 h))
        (m ((c : Thread nD τ).loc main_arg8) : S64x16.Idx → Elt Ideal .f32) q
        + (m ((c : Thread nD τ).loc main_arg9) : S16.Idx → Elt Ideal .f32) (ix1 q)
  rw [adj_W3, supp_W3, rowb1_W3, rowb1_W1, arg8_W3, rowp_W3, rowp_W1, support1_eq]
  refine congrArg₂ (· + ·) (congrArg (fun f => layerRow
    (fun k => (m ((c : Thread nD τ).loc main_arg1) : S10000x10000.Idx → Elt Ideal .f32) (ix2 r k))
    (support1 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))) f
    (m ((c : Thread nD τ).loc main_arg8) : S64x16.Idx → Elt Ideal .f32) q) (funext fun h => ?_)) ?_
  · exact shapeCast_a_1a_apply _ shapeCasts_S64_S1x64 (0 : Fin 1) h
  · exact shapeCast_a_1a_apply _ shapeCasts_S16_S1x16 (0 : Fin 1) q

/-! ## The result buffer when the program returns -/

/-- The result buffer ends holding the network's output of the launch memory's arguments. -/
theorem result_eq (c : Dev nD) : W4 m ρ c (Proc.devRef .tc main_v7)
    = network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) :=
  ((W4_arr m ρ c 5).trans (PassB.array_eq (V3 m ρ) c)).trans (network_eq m ρ c)

end Cert.Gcn.Chain

end
-- ==== Proof.lean ====
/-
  A two-layer graph convolution computed in stripes equals the one computed whole.

  Both programs compute, from node features X, an n-by-n adjacency matrix A, weights F, W₀, W₁, P and biases
  f, b₀, b₁, p,

      out = relu(A · relu(A · ((X·F + f) · W₀) + b₀) · W₁ + b₁) · P + p,

  and both multiply in the same order: the features are projected first, and each layer's support S·W is formed
  before it meets the adjacency matrix. The reference does it on whole matrices. The kernel program does it in three
  launches: one for the projection, and two that each walk the adjacency matrix in 25 stripes of 400 rows, holding
  the stripe and the previous stage in a narrower float format.

  Over the extended reals the two agree entry by entry, for three reasons and no others. Entry (r, q) of a product
  depends on row r of the left factor only, so a stripe of rows gives exactly the rows of the whole product, and
  the stripes tile the rows. A product's entry is a finite sum, and addition of extended reals is commutative and
  associative, so the sum does not depend on how the contracted index is enumerated. And a change of float format
  is the identity on the extended reals. No step distributes a product over a sum or cancels anything, so nothing
  here needs the inputs to be finite: the precondition is never opened.

  The pieces: the two row functions and each stage read at an entry in either program's spelling (LibGcnLayerReads),
  the network as one function of the arrays (GcnSpec),
  the reference as the specification (GcnReference), what each kernel body stores (GcnPayloads) and the array each
  launch leaves (GcnProj, GcnPassA, GcnPassB), the kernel program's run with every buffer named (GcnRun), and the
  launches chained back to the arguments (GcnChain). The idealized kernel is the kernel's own text read over the
  extended reals — the idealization rewrote nothing — so that claim holds trivially.
-/
import proofs.«156635_g3221225472201_cont_8to1_b_1787_6_alg».proof.Defs
import proofs.«156635_g3221225472201_cont_8to1_b_1787_6_alg».proof.Proof.Gen.Kernel
import proofs.«156635_g3221225472201_cont_8to1_b_1787_6_alg».proof.Proof.Gen.Kernel.Skeleton
import proofs.«156635_g3221225472201_cont_8to1_b_1787_6_alg».proof.Proof.Gen.Kernel.Launch
import proofs.«156635_g3221225472201_cont_8to1_b_1787_6_alg».proof.Proof.Gen.Kernel.Points
import proofs.«156635_g3221225472201_cont_8to1_b_1787_6_alg».proof.Proof.Gen.Kernel.Frame
import proofs.«156635_g3221225472201_cont_8to1_b_1787_6_alg».proof.Proof.Gen.KernelIdeal
import proofs.«156635_g3221225472201_cont_8to1_b_1787_6_alg».proof.Proof.Gen.KernelIdeal.Skeleton
import proofs.«156635_g3221225472201_cont_8to1_b_1787_6_alg».proof.Proof.Gen.KernelIdeal.Launch
import proofs.«156635_g3221225472201_cont_8to1_b_1787_6_alg».proof.Proof.Gen.KernelIdeal.Points
import proofs.«156635_g3221225472201_cont_8to1_b_1787_6_alg».proof.Proof.Gen.KernelIdeal.Frame
import proofs.«156635_g3221225472201_cont_8to1_b_1787_6_alg».proof.Proof.Gen.ReferenceIdeal
import proofs.«156635_g3221225472201_cont_8to1_b_1787_6_alg».proof.Proof.Gen.ReferenceIdeal.Run
import proofs.«156635_g3221225472201_cont_8to1_b_1787_6_alg».proof.Proof.Gen.ReferenceIdeal.Read
import proofs.«156635_g3221225472201_cont_8to1_b_1787_6_alg».proof.Proof.Gen.Pre_finite_inputs
import proofs.«156635_g3221225472201_cont_8to1_b_1787_6_alg».proof.Proof.GcnReference
import proofs.«156635_g3221225472201_cont_8to1_b_1787_6_alg».proof.Proof.GcnRun
import proofs.«156635_g3221225472201_cont_8to1_b_1787_6_alg».proof.Proof.GcnChain
import Idealize.ShloMosaic.Adequacy
import Idealize.ShloMosaic.Init

noncomputable section

namespace Cert.Proof

open Idealize.ShloMosaic Idealize.SL.Sem

/-- The kernel program runs and leaves its arguments as launched. -/
theorem frame_kernel [Cert.Kernel.Facts] [Cert.Pre_finite_inputs.Facts] : Cert.frame_Kernel :=
  fun m ρ _ => Cert.Kernel.Gen.frame m ρ

/-- So does the same program read over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments both programs end with the network's output of those arguments: the
    kernel program's result buffer by the three launches chained back to the arguments, the reference's by its
    stages. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Gcn.Chain.result_eq m ρ c), (h c).2⟩)
      (Cert.Gcn.Run.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v20_eq, Cert.Gcn.Reference.network_eq,
      a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
